-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S8387998 : Shape := ⟨1, ![8387998]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S8387998 : S_.BroadcastsInDim S8387998 (![] : Fin 0 → Fin S8387998.rank)
  reducesTo_S8387998_S_d0 : S8387998.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S8387998 .f32) (main_arg2 : IVec S8387998 32) (main_arg3 : IVec S8387998 32) (main_arg4 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S8387998 .f32 := Host.absf main_arg1
  let main_cst_0 : FVec F S_ .f32 := constant S_ .f32 0x7F800000#32
  let main_v5 : FVec F S8387998 .f32 := broadcastInDim S8387998 ![] bcast_S_S8387998 main_cst_0
  let main_v6 : IVec S8387998 1 := cmpf .olt main_v4 main_v5
  let main_c_1 : IVec S_ 1 := constantI S_ 1 1#1
  let main_v7 : IVec S_ 1 := (fun x v => Host.reduce IntOp.andi x v reducesTo_S8387998_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S8387998 : Shape := ⟨1, ![8387998]⟩
abbrev S4096 : Shape := ⟨1, ![4096]⟩
abbrev S_ : Shape := ⟨0, ![]⟩
abbrev S4096x4096 : Shape := ⟨2, ![4096, 4096]⟩
abbrev S8387998x1 : Shape := ⟨2, ![8387998, 1]⟩
abbrev S8387998x2 : Shape := ⟨2, ![8387998, 2]⟩
abbrev S1x4096 : Shape := ⟨2, ![1, 4096]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 28
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S8387998, .f32⟩
  | .hbm, ⟨2, _⟩ => ⟨S8387998, .i32⟩
  | .hbm, ⟨3, _⟩ => ⟨S8387998, .i32⟩
  | .hbm, ⟨4, _⟩ => ⟨S4096, .f32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S8387998, .i32⟩
  | .hbm, ⟨9, _⟩ => ⟨S8387998, .i1⟩
  | .hbm, ⟨10, _⟩ => ⟨S_, .i32⟩
  | .hbm, ⟨11, _⟩ => ⟨S8387998, .i32⟩
  | .hbm, ⟨12, _⟩ => ⟨S8387998, .i32⟩
  | .hbm, ⟨13, _⟩ => ⟨S8387998, .i32⟩
  | .hbm, ⟨14, _⟩ => ⟨S_, .i32⟩
  | .hbm, ⟨15, _⟩ => ⟨S8387998, .i32⟩
  | .hbm, ⟨16, _⟩ => ⟨S8387998, .i1⟩
  | .hbm, ⟨17, _⟩ => ⟨S_, .i32⟩
  | .hbm, ⟨18, _⟩ => ⟨S8387998, .i32⟩
  | .hbm, ⟨19, _⟩ => ⟨S8387998, .i32⟩
  | .hbm, ⟨20, _⟩ => ⟨S8387998, .i32⟩
  | .hbm, ⟨21, _⟩ => ⟨S8387998x1, .i32⟩
  | .hbm, ⟨22, _⟩ => ⟨S8387998x1, .i32⟩
  | .hbm, ⟨23, _⟩ => ⟨S8387998x2, .i32⟩
  | .hbm, ⟨24, _⟩ => ⟨S4096x4096, .f32⟩
  | .hbm, ⟨25, _⟩ => ⟨S4096x4096, .bf16⟩
  | .hbm, ⟨26, _⟩ => ⟨S1x4096, .f32⟩
  | .hbm, ⟨27, _⟩ => ⟨S16384x4096, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_c_0 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_v6 : Ref sig .tc := ⟨.hbm, 15, rfl⟩
abbrev main_call0_v7 : Ref sig .tc := ⟨.hbm, 16, rfl⟩
abbrev main_call0_c_2 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_v0 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 32, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S_S8387998 : S_.BroadcastsInDim S8387998 (![] : Fin 0 → Fin S8387998.rank)
  bcast_S8387998_S8387998x1_0 : S8387998.BroadcastsInDim S8387998x1 (![0] : Fin 1 → Fin S8387998x1.rank)
  concatenates_S8387998x1_S8387998x1_S8387998x2_d1 : Shape.Concatenates [S8387998x1, S8387998x1] S8387998x2 1
  bitsLt_bf16_f32 : FTy.bits .bf16 < FTy.bits .f32
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  scatter_S4096x4096_S8387998x2_S8387998_n_01_01_1_wf : ScatterDims.WF S4096x4096 S8387998x2 S8387998 [] [0, 1] [0, 1] 1
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x4096.size a
  hwx0_0 : ∀ i : grid0.Coords, EltTy.bits .f32 = 32 ∨ (Rect.block (s := S16384x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x4096.size a
  hwx0_3 : ∀ i : grid0.Coords, EltTy.bits .f32 = 32 ∨ (Rect.block (s := S16384x4096) S512x1024.size (cc0_transform_3 i) (hinb0_3 i)).WholeWords (EltTy.packing .f32)

variable [Facts₀]

def scatter_S4096x4096_S8387998x2_S8387998_n_01_01_1 : ScatterDims S4096x4096 S8387998x2 S8387998 where
  updateWindowDims := []
  insertedWindowDims := [0, 1]
  scatterDimsToOperandDims := [0, 1]
  indexVectorDim := 1
  wf := scatter_S4096x4096_S8387998x2_S8387998_n_01_01_1_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v15) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v16) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S8387998 : Shape := ⟨1, ![8387998]⟩
abbrev S4096 : Shape := ⟨1, ![4096]⟩
abbrev S_ : Shape := ⟨0, ![]⟩
abbrev S4096x4096 : Shape := ⟨2, ![4096, 4096]⟩
abbrev S8387998x1 : Shape := ⟨2, ![8387998, 1]⟩
abbrev S8387998x2 : Shape := ⟨2, ![8387998, 2]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8387998, .f32⟩
  | .hbm, ⟨2, _⟩ => ⟨S8387998, .i32⟩
  | .hbm, ⟨3, _⟩ => ⟨S8387998, .i32⟩
  | .hbm, ⟨4, _⟩ => ⟨S4096, .f32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S8387998, .i32⟩
  | .hbm, ⟨9, _⟩ => ⟨S8387998, .i1⟩
  | .hbm, ⟨10, _⟩ => ⟨S_, .i32⟩
  | .hbm, ⟨11, _⟩ => ⟨S8387998, .i32⟩
  | .hbm, ⟨12, _⟩ => ⟨S8387998, .i32⟩
  | .hbm, ⟨13, _⟩ => ⟨S8387998, .i32⟩
  | .hbm, ⟨14, _⟩ => ⟨S_, .i32⟩
  | .hbm, ⟨15, _⟩ => ⟨S8387998, .i32⟩
  | .hbm, ⟨16, _⟩ => ⟨S8387998, .i1⟩
  | .hbm, ⟨17, _⟩ => ⟨S_, .i32⟩
  | .hbm, ⟨18, _⟩ => ⟨S8387998, .i32⟩
  | .hbm, ⟨19, _⟩ => ⟨S8387998, .i32⟩
  | .hbm, ⟨20, _⟩ => ⟨S8387998, .i32⟩
  | .hbm, ⟨21, _⟩ => ⟨S8387998x1, .i32⟩
  | .hbm, ⟨22, _⟩ => ⟨S8387998x1, .i32⟩
  | .hbm, ⟨23, _⟩ => ⟨S8387998x2, .i32⟩
  | .hbm, ⟨24, _⟩ => ⟨S4096x4096, .f32⟩
  | .hbm, ⟨25, _⟩ => ⟨S4096x4096, .f32⟩
  | .hbm, ⟨26, _⟩ => ⟨S16384x4096, .f32⟩
  | .hbm, ⟨27, _⟩ => ⟨S1x4096, .f32⟩
  | .hbm, ⟨28, _⟩ => ⟨S16384x4096, .f32⟩
  | .hbm, ⟨29, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S8387998 : S_.BroadcastsInDim S8387998 (![] : Fin 0 → Fin S8387998.rank)
  bcast_S8387998_S8387998x1_0 : S8387998.BroadcastsInDim S8387998x1 (![0] : Fin 1 → Fin S8387998x1.rank)
  concatenates_S8387998x1_S8387998x1_S8387998x2_d1 : Shape.Concatenates [S8387998x1, S8387998x1] S8387998x2 1
  transposes_S4096x4096_S4096x4096_1_0 : S4096x4096.Transposes [1, 0] S4096x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  scatter_S4096x4096_S8387998x2_S8387998_n_01_01_1_wf : ScatterDims.WF S4096x4096 S8387998x2 S8387998 [] [0, 1] [0, 1] 1
  dot_S16384x4096_S4096x4096_S16384x4096_1_0_0_1_n_n_wf : DotDims.WF S16384x4096 S4096x4096 S16384x4096 [1] [0] [0] [1] [] []

variable [Facts₀]

def scatter_S4096x4096_S8387998x2_S8387998_n_01_01_1 : ScatterDims S4096x4096 S8387998x2 S8387998 where
  updateWindowDims := []
  insertedWindowDims := [0, 1]
  scatterDimsToOperandDims := [0, 1]
  indexVectorDim := 1
  wf := scatter_S4096x4096_S8387998x2_S8387998_n_01_01_1_wf
def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.Pieces.lean ====
import proofs.«133473_j8856222564675_2_alg».proof.Proof.Gen.KernelIdeal.Frame
import Idealize.ShloMosaic.Lib.Pipeline.Value
import Idealize.ShloMosaic.Lib.Tactic

/-!
# What one grid point leaves behind

The kernel body runs at 256 grid points, numbered so that the consecutive pair 2q, 2q + 1 are the two halves of the
contracted axis for one output block. At an even point the body clears the accumulator, then adds to it the product
of the point's left block (512 × 2048) and right block (2048 × 1024). At an odd point it adds the product of that
point's blocks to what the even point left, and stores the accumulator plus the bias row into the output block.

The three lemmas here read those three values off the stores the body was found to make: each store covers its
buffer from offset zero, so what the buffer holds afterwards is the stored value itself, and a load of a buffer that
was just stored whole reads the stored value back.
-/

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Every store and load of the body starts at offset zero on both axes. -/
theorem hz : (![0, 0] : Fin 2 → Nat) = fun _ => 0 := funext fun a => by fin_cases a <;> rfl

/-- An odd point leaves in the accumulator what the even point before left (xs0) plus the product of its own blocks. -/
theorem acc_B (c : Dev nD) (i : grid0.Coords) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x2048 .f32) (x1 : Vec F S2048x1024 .bf16) (x2 : Vec F S1x1024 .f32) (xs0 : Vec F S512x1024 .f32) :
    sout0_B_0 c i arg3 harg3 arg4 harg4 arg5 harg5 arg6 harg6 arg7 harg7 hc0 hc1 x0 x1 x2 xs0 = k0_pay2 x0 xs0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread,
    View.ld_unit_zero (S := S512x2048) hz, View.ld_unit_zero (S := S512x1024) hz, View.ld_unit_zero (S := S2048x1024) hz]

/-- An odd point stores into the output block the accumulator it has just updated, plus the bias row. -/
theorem out_B (c : Dev nD) (i : grid0.Coords) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x2048 .f32) (x1 : Vec F S2048x1024 .bf16) (x2 : Vec F S1x1024 .f32) (xs0 : Vec F S512x1024 .f32) :
    out0_B_3 c i arg3 harg3 arg4 harg4 arg5 harg5 arg6 harg6 arg7 harg7 hc0 hc1 x0 x1 x2 xs0 = k0_pay3 (k0_pay2 x0 xs0 x1) x2 := by
  unfold out0_B_3
  rw [View.read_writes_eq_canon _ _ _ (cover0_B_3 c i arg3 harg3 arg4 harg4 arg5 harg5 arg6 harg6 arg7 harg7 hc0 hc1 x0 x1 x2 xs0)]
  unfold kernelRun0_B
  dsimp only
  sl_unfold_words
  rw [View.canon_unit_zero hz, View.readCov_unit_zero (S := S512x1024) _ hz]
  simp only [View.readAt_eq_ld, harg3.read_unread, harg4.read_unread, harg5.read_unread, harg7.read_unread,
    View.ld_unit_zero (S := S512x2048) hz, View.ld_unit_zero (S := S512x1024) hz, View.ld_unit_zero (S := S2048x1024) hz,
    View.ld_unit_zero (S := S1x1024) hz]

/-- An even point leaves in the accumulator the cleared block plus the product of its own blocks. -/
theorem acc_A (c : Dev nD) (i : grid0.Coords) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : ¬cond0_1 i)
    (x0 : Vec F S512x2048 .f32) (x1 : Vec F S2048x1024 .bf16) (x2 : Vec F S1x1024 .f32) :
    sout0_A_0 c i arg3 harg3 arg4 harg4 arg5 harg5 arg6 harg6 arg7 harg7 hc0 hc1 x0 x1 x2 = k0_pay2 x0 k0_pay1 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x1024) hz, View.readCov_unit_zero (S := S512x1024) _ hz]
  simp only [View.readAt_eq_ld, harg3.read_unread, harg4.read_unread,
    View.ld_unit_zero (S := S512x2048) hz, View.ld_unit_zero (S := S2048x1024) hz]

end Cert.KernelIdeal.Pieces
end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.Payload.lean ====
import proofs.«133473_j8856222564675_2_alg».proof.Proof.Gen.KernelIdeal.Skeleton
import proofs.«133473_j8856222564675_2_alg».proof.Proof.LibPlainDot
import Idealize.ShloMosaic.PureOps.Ideal.Laws
import Idealize.ShloMosaic.Lib.ValueIdx
import Idealize.ShloMosaic.Lib.Pipeline.Value

/-!
# The body's three stored values, entry by entry, in exact arithmetic

Read on the extended reals, where a change of float format is the identity and the matrix unit computes the exact sum
of products:

* the cleared accumulator is zero everywhere;
* the updated accumulator at (p, n) is the old accumulator at (p, n) plus the sum over a < 2048 of the left block at
  (p, a) times the right block at (a, n);
* the output block at (p, n) is the accumulator at (p, n) plus the bias row at (0, n).

Chaining them over one even point and the odd point after it gives the value an odd point stores.
-/

noncomputable section

open scoped BigOperators

namespace Cert.KernelIdeal.Payload

open Cert.KernelIdeal Cert.KernelIdeal.Gen Idealize.ShloMosaic Idealize.ShloMosaic.ValueIdx

/-- The body's matrix product has the plain dimension numbers: one contracted axis, of 2048. -/
theorem dot_rank : dot_S512x2048_S2048x1024_S512x1024_1_0_0_1_n_n.contr.rank = 1 := rfl
theorem dot_size : dot_S512x2048_S2048x1024_S512x1024_1_0_0_1_n_n.contr.size ⟨0, by decide⟩ = 2048 := rfl

/-- The left factor is indexed by (output row, contraction index), -/
theorem lhs0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl
theorem lhs1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
/-- the right factor by (contraction index, output column). -/
theorem rhs0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem rhs1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-- The cleared accumulator is zero at every entry. -/
theorem cleared_apply (j : S512x1024.Idx) : k0_pay1 (F := Ideal) j = 0 := by
  unfold k0_pay1
  simp only [shapeCast_self]
  show Ideal.ofBits .f32 0x00000000#32 = 0
  exact Ideal.ofBits_zero_f32

/-- The updated accumulator: the old one plus the blocks' product, entry by entry. -/
theorem acc_apply (x0 : Vec Ideal S512x2048 .f32) (acc : Vec Ideal S512x1024 .f32) (x1 : Vec Ideal S2048x1024 .bf16)
    (p : Fin 512) (n : Fin 1024) :
    k0_pay2 x0 acc x1 (ix2 p n) = acc (ix2 p n) + ∑ a : Fin 2048, x0 (ix2 p a) * x1 (ix2 a n) := by
  unfold k0_pay2
  simp only [shapeCast_self]
  show acc (ix2 p n) + FloatOps.matmul (F := Ideal) dot_S512x2048_S2048x1024_S512x1024_1_0_0_1_n_n none
      (x0 : FVec Ideal S512x2048 .bf16) x1 (constant S512x1024 .f32 0x00000000#32) (ix2 p n) = _
  exact congrArg (acc (ix2 p n) + ·) (Cert.LibPlainDot.matmul_zero_plain
    dot_S512x2048_S2048x1024_S512x1024_1_0_0_1_n_n dot_rank dot_size lhs0 lhs1 rhs0 rhs1 none x0 x1 p n)

/-- The output block: the accumulator plus the bias row repeated down the rows. -/
theorem out_apply (v16 : Vec Ideal S512x1024 .f32) (v17 : Vec Ideal S1x1024 .f32) (p : Fin 512) (n : Fin 1024) :
    k0_pay3 v16 v17 (ix2 p n) = v16 (ix2 p n) + v17 (ix2 (0 : Fin 1) n) := by
  unfold k0_pay3
  simp only [shapeCast_self]
  show v16 (ix2 p n) + broadcastTo S512x1024 v17 broadcasts_S1x1024_S512x1024 (ix2 p n) = _
  exact congrArg (v16 (ix2 p n) + ·) (broadcastTo_apply v17 broadcasts_S1x1024_S512x1024 (ix2 p n) (ix2 (0 : Fin 1) n)
    (fun a => match a with
      | ⟨0, _⟩ => by show (0 : Nat) = if (1 : Nat) = 1 then 0 else _; rw [if_pos rfl]
      | ⟨1, _⟩ => by show n.val = if (1024 : Nat) = 1 then 0 else n.val; rw [if_neg (by decide)]))

/-- What an odd point stores into the output block, over the even point before it: the two half contractions added
    to zero in order, plus the bias row. Here x0e, x1e are the even point's blocks and x0, x1, x2 the odd point's. -/
theorem stored_apply (x0e x0 : Vec Ideal S512x2048 .f32) (x1e x1 : Vec Ideal S2048x1024 .bf16) (x2 : Vec Ideal S1x1024 .f32)
    (p : Fin 512) (n : Fin 1024) :
    k0_pay3 (k0_pay2 x0 (k0_pay2 x0e (k0_pay1 (F := Ideal)) x1e) x1) x2 (ix2 p n)
      = ((0 + ∑ a : Fin 2048, x0e (ix2 p a) * x1e (ix2 a n)) + ∑ a : Fin 2048, x0 (ix2 p a) * x1 (ix2 a n))
        + x2 (ix2 (0 : Fin 1) n) := by
  rw [out_apply, acc_apply, acc_apply, cleared_apply]

/-- The same at any entry j of the block, written through its two coordinates. -/
theorem stored_at (x0e x0 : Vec Ideal S512x2048 .f32) (x1e x1 : Vec Ideal S2048x1024 .bf16) (x2 : Vec Ideal S1x1024 .f32)
    (j : S512x1024.Idx) :
    k0_pay3 (k0_pay2 x0 (k0_pay2 x0e (k0_pay1 (F := Ideal)) x1e) x1) x2 j
      = ((0 + ∑ a : Fin 2048, x0e (ix2 (j 0) a) * x1e (ix2 a (j 1))) + ∑ a : Fin 2048, x0 (ix2 (j 0) a) * x1 (ix2 a (j 1)))
        + x2 (ix2 (0 : Fin 1) (j 1)) := by
  obtain ⟨p, n, rfl⟩ : ∃ (p : Fin 512) (n : Fin 1024), j = ix2 p n := ⟨j 0, j 1, eq_ix2 j⟩
  exact stored_apply x0e x0 x1e x1 x2 p n

end Cert.KernelIdeal.Payload

end
-- ==== Proof.Spec.lean ====
import Idealize.ShloMosaic.PureOps.Ideal.Laws
import Idealize.ShloMosaic.Lib.ValueIdx
import proofs.«133473_j8856222564675_2_alg».proof.Proof.LibPlainDot

/-!
# The dense layer both programs compute

For a 16384 × 4096 matrix X, a 4096 × 4096 weight matrix W laid out input-feature-major (row k, column n is the
weight from input feature k to output feature n) and a bias vector b of length 4096, the layer is

    Y (r, n) = (Σ over k < 4096 of X (r, k) · W (k, n)) + b n

on the extended reals. The contracted axis can be taken in two halves of 2048: starting from zero, adding the
first half's sum and then the second half's gives the same number, because addition on the extended reals is
commutative and associative with neutral element zero (no cancellation or distributivity is involved, so nothing
needs to be finite).
-/

noncomputable section

open scoped BigOperators

namespace Cert.Spec

open Idealize.ShloMosaic Idealize.ShloMosaic.ValueIdx

/-- The layer Y = X · W + b, entry by entry. -/
def lin (X : (⟨2, ![16384, 4096]⟩ : Shape).Idx → EReal) (W : (⟨2, ![4096, 4096]⟩ : Shape).Idx → EReal)
    (b : (⟨1, ![4096]⟩ : Shape).Idx → EReal) : (⟨2, ![16384, 4096]⟩ : Shape).Idx → EReal :=
  fun i => (∑ k : Fin 4096, X (ix2 (i 0) k) * W (ix2 k (i 1))) + b (ix1 (i 1))

/-- The same entry with the contraction taken in two halves, accumulated from zero. -/
theorem lin_two_halves (X : (⟨2, ![16384, 4096]⟩ : Shape).Idx → EReal) (W : (⟨2, ![4096, 4096]⟩ : Shape).Idx → EReal)
    (b : (⟨1, ![4096]⟩ : Shape).Idx → EReal) (r : Fin 16384) (n : Fin 4096) :
    lin X W b (ix2 r n)
      = ((0 + ∑ a : Fin 2048, X (ix2 r (⟨a.val, by omega⟩ : Fin 4096)) * W (ix2 (⟨a.val, by omega⟩ : Fin 4096) n))
          + ∑ a : Fin 2048, X (ix2 r (⟨2048 + a.val, by omega⟩ : Fin 4096)) * W (ix2 (⟨2048 + a.val, by omega⟩ : Fin 4096) n))
        + b (ix1 n) := by
  unfold lin
  rw [zero_add]
  congr 1
  exact Cert.LibPlainDot.sum_two_blocks 2048 (fun k : Fin (2048 + 2048) => X (ix2 r k) * W (ix2 k n))

/-- The same at any index i, written through its two coordinates. -/
theorem lin_halves_at (X : (⟨2, ![16384, 4096]⟩ : Shape).Idx → EReal) (W : (⟨2, ![4096, 4096]⟩ : Shape).Idx → EReal)
    (b : (⟨1, ![4096]⟩ : Shape).Idx → EReal) (i : (⟨2, ![16384, 4096]⟩ : Shape).Idx) :
    lin X W b i
      = ((0 + ∑ a : Fin 2048, X (ix2 (i 0) (⟨a.val, by omega⟩ : Fin 4096)) * W (ix2 (⟨a.val, by omega⟩ : Fin 4096) (i 1)))
          + ∑ a : Fin 2048, X (ix2 (i 0) (⟨2048 + a.val, by omega⟩ : Fin 4096)) * W (ix2 (⟨2048 + a.val, by omega⟩ : Fin 4096) (i 1)))
        + b (ix1 (i 1)) := by
  obtain ⟨r, n, rfl⟩ : ∃ (r : Fin 16384) (n : Fin 4096), i = ix2 r n := ⟨i 0, i 1, eq_ix2 i⟩
  exact lin_two_halves X W b r n

end Cert.Spec

end
-- ==== Proof.HostTerms.lean ====
import proofs.«133473_j8856222564675_2_alg».proof.Proof.Gen.KernelIdeal
import Idealize.ShloMosaic.PureOps

/-!
# The arrays the kernel's host code prepares

Before the kernel is launched, the host code builds its second and third operands from the arguments:

* each index vector is wrapped the way numpy wraps a negative index (an entry below zero has the extent 4096 added);
* the wrapped column indices and the wrapped row indices, in this order, are laid side by side as the index pairs
  (first component: the column index; second component: the row index);
* the values are scattered at those pairs into a 4096 × 4096 array of zeros — so the array is indexed
  (input feature, output feature), the transpose of the usual weight layout — and the array is cast to bf16;
* the bias vector is reshaped to one row of 4096.
-/

noncomputable section

namespace Cert.KernelIdeal.Host

open Cert.KernelIdeal Cert.KernelIdeal.Gen Idealize.ShloMosaic

variable {F : FTy → Type} [FloatOps F]

/-- An index vector with its negative entries wrapped around the extent 4096. -/
def wrapIdx (x : (⟨S8387998, .i32⟩ : BufTy).Contents (Elt F)) : (⟨S8387998, .i32⟩ : BufTy).Contents (Elt F) :=
  select (cmpi .slt x (broadcastInDim S8387998 ![] bcast_S_S8387998 (constantI S_ 32 0#32)))
    (addi x (broadcastInDim S8387998 ![] bcast_S_S8387998 (constantI S_ 32 4096#32))) x

/-- The index pairs: component 0 the wrapped column index (from x3), component 1 the wrapped row index (from x2). -/
def pairs (x2 x3 : (⟨S8387998, .i32⟩ : BufTy).Contents (Elt F)) : (⟨S8387998x2, .i32⟩ : BufTy).Contents (Elt F) :=
  concatenate S8387998x2 1
    [⟨S8387998x1, broadcastInDim S8387998x1 ![0] bcast_S8387998_S8387998x1_0 (wrapIdx (F := F) x3)⟩,
     ⟨S8387998x1, broadcastInDim S8387998x1 ![0] bcast_S8387998_S8387998x1_0 (wrapIdx (F := F) x2)⟩]
    concatenates_S8387998x1_S8387998x1_S8387998x2_d1

/-- The values scattered at the pairs into zeros, before the cast. -/
def scattered (x1 : (⟨S8387998, .f32⟩ : BufTy).Contents (Elt F)) (x2 x3 : (⟨S8387998, .i32⟩ : BufTy).Contents (Elt F)) :
    (⟨S4096x4096, .f32⟩ : BufTy).Contents (Elt F) :=
  Host.scatter scatter_S4096x4096_S8387998x2_S8387998_n_01_01_1 (fun _ b => b)
    (broadcastInDim S4096x4096 ![] bcast_S_S4096x4096 (constant S_ .f32 0x00000000#32)) (pairs (F := F) x2 x3) x1

/-- The kernel's second operand: the scattered array cast to bf16. -/
def weights (x1 : (⟨S8387998, .f32⟩ : BufTy).Contents (Elt F)) (x2 x3 : (⟨S8387998, .i32⟩ : BufTy).Contents (Elt F)) :
    (⟨S4096x4096, .bf16⟩ : BufTy).Contents (Elt F) :=
  truncf .bf16 (scattered x1 x2 x3) bitsLt_bf16_f32

/-- The kernel's third operand: the bias as one row. -/
def biasRow (x4 : (⟨S4096, .f32⟩ : BufTy).Contents (Elt F)) : (⟨S1x4096, .f32⟩ : BufTy).Contents (Elt F) :=
  shapeCast S1x4096 x4 shapeCasts_S4096_S1x4096

end Cert.KernelIdeal.Host

end
-- ==== Proof.HostPrefix.lean ====
import proofs.«133473_j8856222564675_2_alg».proof.Proof.Gen.KernelIdeal.Frame
import proofs.«133473_j8856222564675_2_alg».proof.Proof.HostTerms
import Idealize.ShloMosaic.Lib.Pipeline.Value
import Idealize.ShloMosaic.Lib.StableHlo.Run
import Idealize.ShloMosaic.Lib.Tactic

/-!
# What the kernel finds in its second and third operands

When the kernel is launched, the host lines before it have run. Reading them back, the buffer the kernel stages as its
right factor holds the scattered, cast weight array of the arguments, and the buffer it stages as its bias holds the
bias argument as one row.

The host lines are read in two stretches. The first nineteen build the zero array and the index pairs and leave the
values argument alone. The last three scatter, cast, and reshape the bias; the scatter is read over whatever the first
stretch left in its three operand buffers, so that it is never opened.
-/

noncomputable section

open Idealize.ShloMosaic Idealize.ShloMosaic.TcCoe Idealize.SL.Sem Idealize.ShloMosaic.StableHlo

namespace Cert.KernelIdeal.HostPrefix

open Cert.KernelIdeal Cert.KernelIdeal.Gen Cert.KernelIdeal.Host

variable {F : FTy → Type} [FloatOps F]
variable (m : (ℓ : Loc nD τ sig) → Buf (Elt F) ℓ)

/-- The bias operand is the bias argument as one row. -/
theorem V_biasRow (c : Dev nD) :
    (V m c main_call0_v16 : (⟨S1x4096, .f32⟩ : BufTy).Contents (Elt F))
      = biasRow (m ((c : Thread nD τ).loc main_arg4)) := by
  dsimp only [Gen.V, Gen.hostOps0]
  after_results
  rfl

/-- The buffers as the first nineteen host lines leave them. -/
def early (c : Dev nD) : Valuation τ sig (Elt F) := StableHlo.after ((hostOps0 (F := F)).take 19) (fun b => m (c, b))

/-- All the host lines are the first nineteen followed by the last three. -/
theorem V_split (c : Dev nD) (b : Ref sig .tc) :
    V m c b = StableHlo.after ((hostOps0 (F := F)).drop 19) (early m c) b := rfl

/-- The first stretch leaves the zero array in the scatter's operand buffer, -/
theorem early_zeros (c : Dev nD) :
    (early m c (Proc.devRef .tc main_call0_v0) : (⟨S4096x4096, .f32⟩ : BufTy).Contents (Elt F))
      = broadcastInDim S4096x4096 ![] bcast_S_S4096x4096 (constant S_ .f32 0x00000000#32) := by
  dsimp only [early, Gen.hostOps0, List.take]
  after_results
  rfl

set_option maxHeartbeats 1000000 in
/-- the index pairs in its indices buffer, -/
theorem early_pairs (c : Dev nD) :
    (early m c (Proc.devRef .tc main_call0_v13) : (⟨S8387998x2, .i32⟩ : BufTy).Contents (Elt F))
      = pairs (m ((c : Thread nD τ).loc main_arg2)) (m ((c : Thread nD τ).loc main_arg3)) := by
  dsimp only [early, Gen.hostOps0, List.take]
  after_results
  rfl

/-- and the values argument as launched. -/
theorem early_values (c : Dev nD) :
    (early m c (Proc.devRef .tc main_arg1) : (⟨S8387998, .f32⟩ : BufTy).Contents (Elt F))
      = m ((c : Thread nD τ).loc main_arg1) := by
  dsimp only [early, Gen.hostOps0, List.take]
  after_results

/-- The last three host lines with the scatter replaced by any function g of its three operands, over any contents W
    of the buffers: the right-factor operand ends as the cast of g of what W holds in the three operand buffers. -/
theorem late_any (g : (⟨S4096x4096, .f32⟩ : BufTy).Contents (Elt F) → (⟨S8387998x2, .i32⟩ : BufTy).Contents (Elt F)
      → (⟨S8387998, .f32⟩ : BufTy).Contents (Elt F) → (⟨S4096x4096, .f32⟩ : BufTy).Contents (Elt F))
    (W : Valuation τ sig (Elt F)) :
    (StableHlo.after
      [ StableHlo.TRef.ternary (.of main_call0_v0 : StableHlo.TRef sig ⟨S4096x4096, .f32⟩) (.of main_call0_v13 : StableHlo.TRef sig ⟨S8387998x2, .i32⟩) (.of main_arg1 : StableHlo.TRef sig ⟨S8387998, .f32⟩) (.of main_call0_v14 : StableHlo.TRef sig ⟨S4096x4096, .f32⟩) g,
        StableHlo.TRef.unary (.of main_call0_v14 : StableHlo.TRef sig ⟨S4096x4096, .f32⟩) (.of main_call0_v15 : StableHlo.TRef sig ⟨S4096x4096, .bf16⟩) (truncf .bf16 · bitsLt_bf16_f32),
        StableHlo.TRef.reshape (.of main_arg4 : StableHlo.TRef sig ⟨S4096, .f32⟩) (.of main_call0_v16 : StableHlo.TRef sig ⟨S1x4096, .f32⟩) rfl shapeCasts_S4096_S1x4096 ]
      W (Proc.devRef .tc main_call0_v15) : (⟨S4096x4096, .bf16⟩ : BufTy).Contents (Elt F))
      = truncf .bf16 (g (W (Proc.devRef .tc main_call0_v0)) (W (Proc.devRef .tc main_call0_v13)) (W (Proc.devRef .tc main_arg1)))
          bitsLt_bf16_f32 := by
  after_results
  rfl

/-- The last stretch, over any contents W of the buffers: the right-factor operand is the cast of the scatter of
    what W holds in the three operand buffers. -/
theorem late_weights (W : Valuation τ sig (Elt F)) :
    (StableHlo.after ((hostOps0 (F := F)).drop 19) W (Proc.devRef .tc main_call0_v15) : (⟨S4096x4096, .bf16⟩ : BufTy).Contents (Elt F))
      = truncf .bf16 (Host.scatter scatter_S4096x4096_S8387998x2_S8387998_n_01_01_1 (fun _ b => b)
          (W (Proc.devRef .tc main_call0_v0) : (⟨S4096x4096, .f32⟩ : BufTy).Contents (Elt F))
          (W (Proc.devRef .tc main_call0_v13) : (⟨S8387998x2, .i32⟩ : BufTy).Contents (Elt F))
          (W (Proc.devRef .tc main_arg1) : (⟨S8387998, .f32⟩ : BufTy).Contents (Elt F))) bitsLt_bf16_f32 :=
  late_any (fun x i u => Host.scatter scatter_S4096x4096_S8387998x2_S8387998_n_01_01_1 (fun _ b => b) x i u) W

/-- The right-factor operand is the weight array scattered from the arguments. -/
theorem V_weights (c : Dev nD) :
    (V m c main_call0_v15 : (⟨S4096x4096, .bf16⟩ : BufTy).Contents (Elt F))
      = weights (m ((c : Thread nD τ).loc main_arg1)) (m ((c : Thread nD τ).loc main_arg2)) (m ((c : Thread nD τ).loc main_arg3)) := by
  rw [V_split, late_weights, early_zeros, early_pairs, early_values]
  unfold weights scattered
  rfl

end Cert.KernelIdeal.HostPrefix

end
-- ==== Proof.Blocks.lean ====
import proofs.«133473_j8856222564675_2_alg».proof.Proof.Gen.KernelIdeal.Value
import proofs.«133473_j8856222564675_2_alg».proof.Proof.Pieces
import proofs.«133473_j8856222564675_2_alg».proof.Proof.Payload
import proofs.«133473_j8856222564675_2_alg».proof.Proof.Spec
import proofs.«133473_j8856222564675_2_alg».proof.Proof.HostPrefix

/-!
# What an odd grid point writes back is a block of the dense layer

Grid point t stands for the triple (J, I, k) with t = 64 J + 2 I + k: column tile J of 1024 output features, row tile I
of 512 tokens, half k of the contracted axis. At that point the left block is rows 512 I … of X, columns 2048 k …; the
right block is rows 2048 k …, columns 1024 J … of the weight array; the bias block is columns 1024 J … of the bias
row; the output block is rows 512 I …, columns 1024 J … of the result.

Only odd points (k = 1) write the output block back. What such a point writes is the stored value of the body over the
blocks of the even point just before it (same J and I, k = 0) and its own: the two half contractions added to zero in
order, plus the bias. Entry by entry that is the dense layer's entry with the contraction taken in two halves.
-/

noncomputable section

open scoped BigOperators

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Host Idealize.ShloMosaic.ValueIdx

variable (m : (ℓ : Loc nD τ sig) → Buf (Elt Ideal) ℓ)

/-- The result array as a function of the arguments: the dense layer of X, the scattered weights and the bias. -/
def result (c : Dev nD) : Buf (Elt Ideal) ((c : Thread nD τ).loc main_v0) :=
  Cert.Spec.lin (m ((c : Thread nD τ).loc main_arg0))
    (weights (m ((c : Thread nD τ).loc main_arg1)) (m ((c : Thread nD τ).loc main_arg2)) (m ((c : Thread nD τ).loc main_arg3)))
    (m ((c : Thread nD τ).loc main_arg4))

/-- The printed index maps in closed form, decided over the 256 points: point t = 64 J + 2 I + k. -/
theorem idx_facts : ∀ t : Fin cfg0.N,
    win0_0.index t (0 : Fin 2) = (t.val / 2) % 32 ∧ win0_0.index t (1 : Fin 2) = t.val % 2
    ∧ win0_1.index t (0 : Fin 2) = t.val % 2 ∧ win0_1.index t (1 : Fin 2) = t.val / 64
    ∧ win0_2.index t (0 : Fin 2) = 0 ∧ win0_2.index t (1 : Fin 2) = t.val / 64
    ∧ win0_3.index t (0 : Fin 2) = (t.val / 2) % 32 ∧ win0_3.index t (1 : Fin 2) = t.val / 64 :=
  (by decide +kernel : ∀ t : Fin grid0.N, _)

/-- Entry (p, a) of the left block at point t is X at the entry its rectangle names. -/
theorem left_block (c : Dev nD) (t : Fin cfg0.N) (p : Fin 512) (a : Fin 2048) (i : S16384x4096.Idx)
    (h0 : (i 0).val = win0_0.index t (0 : Fin 2) * 512 + p.val)
    (h1 : (i 1).val = win0_0.index t (1 : Fin 2) * 2048 + a.val) :
    (iblk m c 0 t : Vec Ideal S512x2048 .f32) (ix2 p a) = m ((c : Thread nD τ).loc main_arg0) i := by
  rw [← V_main_arg0 m c]
  unfold iblk
  rw [View.read_apply]
  show V m c main_arg0 _ = V m c main_arg0 i
  congr 1
  funext b; apply Fin.ext
  match b with
  | ⟨0, _⟩ => show win0_0.index t (0 : Fin 2) * 512 + 1 * p.val = (i 0).val; omega
  | ⟨1, _⟩ => show win0_0.index t (1 : Fin 2) * 2048 + 1 * a.val = (i 1).val; omega

/-- The right-factor operand's buffer is the array that window 1 stages. -/
theorem operand_eq (c : Dev nD) :
    (V m c (Pipeline.arrRef spec0 (1 : Fin cfg0.W)) : (⟨S4096x4096, .bf16⟩ : BufTy).Contents (Elt Ideal)) = V m c main_call0_v15 := rfl

/-- Window 1's block at point t, read through its rectangle, of ANY 4096 × 4096 array A: entry (a, n) of the block is
    A at the entry the rectangle names. -/
theorem read_right (c : Dev nD) (A : (⟨S4096x4096, .bf16⟩ : BufTy).Contents (Elt Ideal)) (t : Fin cfg0.N)
    (a : Fin 2048) (n : Fin 1024) (i : S4096x4096.Idx)
    (h0 : (i 0).val = win0_1.index t (0 : Fin 2) * 2048 + a.val)
    (h1 : (i 1).val = win0_1.index t (1 : Fin 2) * 1024 + n.val) :
    ((((cfg0.win 1).blk t).view.read (Elt Ideal) (A : Buf (Elt Ideal) ((c : Thread nD τ).loc (Pipeline.arrRef spec0 (1 : Fin cfg0.W))))
      : Vec Ideal S2048x1024 .bf16) (ix2 a n)) = A i := by
  rw [View.read_apply]
  refine congrArg A (funext fun b => Fin.ext ?_)
  match b with
  | ⟨0, _⟩ => show win0_1.index t (0 : Fin 2) * 2048 + 1 * a.val = (i 0).val; omega
  | ⟨1, _⟩ => show win0_1.index t (1 : Fin 2) * 1024 + 1 * n.val = (i 1).val; omega

/-- Entry (a, n) of the right block at point t is the weight array at the entry its rectangle names. -/
theorem right_block (c : Dev nD) (t : Fin cfg0.N) (a : Fin 2048) (n : Fin 1024) (i : S4096x4096.Idx)
    (h0 : (i 0).val = win0_1.index t (0 : Fin 2) * 2048 + a.val)
    (h1 : (i 1).val = win0_1.index t (1 : Fin 2) * 1024 + n.val) :
    (iblk m c 1 t : Vec Ideal S2048x1024 .bf16) (ix2 a n)
      = weights (m ((c : Thread nD τ).loc main_arg1)) (m ((c : Thread nD τ).loc main_arg2)) (m ((c : Thread nD τ).loc main_arg3)) i := by
  unfold iblk
  exact (read_right c (V m c (Pipeline.arrRef spec0 (1 : Fin cfg0.W))) t a n i h0 h1).trans
    ((congrFun (operand_eq m c) i).trans (congrFun (Cert.KernelIdeal.HostPrefix.V_weights m c) i))

/-- The bias row at column q is the bias at q: the reshape keeps the row-major position. -/
theorem biasRow_apply (x4 : (⟨S4096, .f32⟩ : BufTy).Contents (Elt Ideal)) (q : Fin 4096) :
    biasRow x4 (ix2 (0 : Fin 1) q) = x4 (ix1 q) := by
  unfold biasRow
  exact shapeCast_apply x4 shapeCasts_S4096_S1x4096 (ix2 (0 : Fin 1) q) (ix1 q)
    (by rw [Shape.rowMajor_val_two, Shape.rowMajor_val_one]; show q.val = 0 * 4096 + q.val; omega)

/-- The bias operand's buffer is the array that window 2 stages. -/
theorem bias_operand_eq (c : Dev nD) :
    (V m c (Pipeline.arrRef spec0 (2 : Fin cfg0.W)) : (⟨S1x4096, .f32⟩ : BufTy).Contents (Elt Ideal)) = V m c main_call0_v16 := rfl

/-- Window 2's block at point t, read through its rectangle, of ANY 1 × 4096 array A: entry (0, n) of the block is A at
    the column the rectangle names. -/
theorem read_bias (c : Dev nD) (A : (⟨S1x4096, .f32⟩ : BufTy).Contents (Elt Ideal)) (t : Fin cfg0.N)
    (n : Fin 1024) (q : Fin 4096)
    (h1 : q.val = win0_2.index t (1 : Fin 2) * 1024 + n.val) (h0 : win0_2.index t (0 : Fin 2) = 0) :
    ((((cfg0.win 2).blk t).view.read (Elt Ideal) (A : Buf (Elt Ideal) ((c : Thread nD τ).loc (Pipeline.arrRef spec0 (2 : Fin cfg0.W))))
      : Vec Ideal S1x1024 .f32) (ix2 (0 : Fin 1) n)) = A (ix2 (0 : Fin 1) q) := by
  rw [View.read_apply]
  refine congrArg A (funext fun b => Fin.ext ?_)
  match b with
  | ⟨0, _⟩ => show win0_2.index t (0 : Fin 2) * 1 + 1 * 0 = 0; omega
  | ⟨1, _⟩ => show win0_2.index t (1 : Fin 2) * 1024 + 1 * n.val = q.val; omega

/-- Entry (0, n) of the bias block at point t is the bias at the column its rectangle names. -/
theorem bias_block (c : Dev nD) (t : Fin cfg0.N) (n : Fin 1024) (q : Fin 4096)
    (h1 : q.val = win0_2.index t (1 : Fin 2) * 1024 + n.val) (h0 : win0_2.index t (0 : Fin 2) = 0) :
    (iblk m c 2 t : Vec Ideal S1x1024 .f32) (ix2 (0 : Fin 1) n) = m ((c : Thread nD τ).loc main_arg4) (ix1 q) := by
  unfold iblk
  exact (read_bias c (V m c (Pipeline.arrRef spec0 (2 : Fin cfg0.W))) t n q h1 h0).trans
    ((congrFun (bias_operand_eq m c) (ix2 (0 : Fin 1) q)).trans
      ((congrFun (Cert.KernelIdeal.HostPrefix.V_biasRow m c) (ix2 (0 : Fin 1) q)).trans
        (biasRow_apply (m ((c : Thread nD τ).loc main_arg4)) q)))

/-- The point before t (used at odd t only, where it is the even point of the same pair). -/
def prev (t : Fin cfg0.N) : Fin cfg0.N := ⟨t.val - 1, Nat.lt_of_le_of_lt (Nat.sub_le _ _) t.isLt⟩

/-- What an odd point writes back: the body's stored value over the blocks of the even point before it and its own. -/
theorem flushed_odd (c : Dev nD) (t : Fin cfg0.N) (h1 : t.val % 2 = 1) :
    (dats m 0 c).flushed 3 t = (cfg0.win 3).cut (grid0.coords t)
      (k0_pay3 (k0_pay2 (iblk m c 0 t) (k0_pay2 (iblk m c 0 (prev t)) (k0_pay1 (F := Ideal)) (iblk m c 1 (prev t))) (iblk m c 1 t))
        (iblk m c 2 t)) := by
  have h0 : ¬ t.val % 2 = 0 := by omega
  have hp0 : (prev t).val % 2 = 0 := by show (t.val - 1) % 2 = 0; omega
  have hp1 : ¬ (prev t).val % 2 = 1 := by omega
  have hprev : (outsAt0 m c (t.val - 1) (Nat.lt_of_le_of_lt (Nat.sub_le _ _) t.isLt)).2
      = k0_pay2 (iblk m c 0 (prev t)) (k0_pay1 (F := Ideal)) (iblk m c 1 (prev t)) := by
    show (outsAt0 m c (prev t).val (prev t).isLt).2 = _
    rw [outsAt0_A m c (prev t) hp0 hp1]
    dsimp only
    exact Cert.KernelIdeal.Pieces.acc_A c (grid0.coords (prev t)) (ms0_0 (prev t)) (hs0_0 (prev t)) (ms0_1 (prev t)) (hs0_1 (prev t)) (ms0_2 (prev t)) (hs0_2 (prev t)) (ms0_3 (prev t)) (hs0_3 (prev t)) scM0_0 (Memref.isWhole_whole _)
      ((hcond0_0 (prev t)).mpr hp0) (fun h => hp1 ((hcond0_1 (prev t)).mp h)) (iblk m c 0 (prev t)) (iblk m c 1 (prev t)) (iblk m c 2 (prev t))
  rw [Cert.KernelIdeal.Value.flushed3_B m c t h0 h1]
  refine congrArg ((cfg0.win 3).cut (grid0.coords t)) ?_
  refine (Cert.KernelIdeal.Pieces.out_B c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2).trans ?_
  rw [hprev]

/-- What a writing point writes back is its block of the dense layer of the arguments. -/
theorem flushed_eq (c : Dev nD) (t : Fin cfg0.N) (hf : (cfg0.win 3).flush t = true) :
    (dats m 0 c).flushed 3 t = ((cfg0.win 3).blk t).view.read (Elt Ideal) (result m c) := by
  have h1 : t.val % 2 = 1 := (flush0_3 t).mp hf
  have hN : t.val < 256 := lt_of_lt_of_eq t.isLt (show cfg0.N = 256 from N_0)
  rw [flushed_odd m c t h1]
  obtain ⟨a0, a1, b0, b1, c0, c1, d0, d1⟩ := idx_facts t
  obtain ⟨pa0, pa1, pb0, pb1, -, -, -, -⟩ := idx_facts (prev t)
  have hpv : (prev t).val = t.val - 1 := rfl
  funext j
  show (k0_pay3 (k0_pay2 (iblk m c 0 t) (k0_pay2 (iblk m c 0 (prev t)) (k0_pay1 (F := Ideal)) (iblk m c 1 (prev t))) (iblk m c 1 t))
      (iblk m c 2 t) : Vec Ideal S512x1024 .f32) j = result m c (((cfg0.win 3).blk t).view.emb j)
  have hj0 : (j 0).val < 512 := (j 0).isLt
  have hj1 : (j 1).val < 1024 := (j 1).isLt
  have e0 : ((((cfg0.win 3).blk t).view.emb j) 0).val = win0_3.index t (0 : Fin 2) * 512 + 1 * (j 0).val := rfl
  have e1 : ((((cfg0.win 3).blk t).view.emb j) 1).val = win0_3.index t (1 : Fin 2) * 1024 + 1 * (j 1).val := rfl
  refine (Cert.KernelIdeal.Payload.stored_at (iblk m c 0 (prev t)) (iblk m c 0 t) (iblk m c 1 (prev t)) (iblk m c 1 t) (iblk m c 2 t) j).trans ?_
  unfold result
  refine Eq.trans ?_ (Cert.Spec.lin_halves_at _ _ _ (((cfg0.win 3).blk t).view.emb j)).symm
  refine congrArg₂ (· + ·) (congrArg₂ (· + ·) (congrArg (0 + ·) (Finset.sum_congr rfl fun a _ => congrArg₂ (· * ·) ?_ ?_))
    (Finset.sum_congr rfl fun a _ => congrArg₂ (· * ·) ?_ ?_)) ?_
  · exact left_block m c (prev t) (j 0) a _ (by show _ = _; rw [e0]; show _ = win0_0.index (prev t) (0 : Fin 2) * 512 + (j 0).val; omega)
      (by show a.val = win0_0.index (prev t) (1 : Fin 2) * 2048 + a.val; omega)
  · exact right_block m c (prev t) a (j 1) _ (by show a.val = win0_1.index (prev t) (0 : Fin 2) * 2048 + a.val; omega)
      (by show _ = _; rw [e1]; show _ = win0_1.index (prev t) (1 : Fin 2) * 1024 + (j 1).val; omega)
  · exact left_block m c t (j 0) a _ (by show _ = _; rw [e0]; show _ = win0_0.index t (0 : Fin 2) * 512 + (j 0).val; omega)
      (by show 2048 + a.val = win0_0.index t (1 : Fin 2) * 2048 + a.val; omega)
  · exact right_block m c t a (j 1) _ (by show 2048 + a.val = win0_1.index t (0 : Fin 2) * 2048 + a.val; omega)
      (by show _ = _; rw [e1]; show _ = win0_1.index t (1 : Fin 2) * 1024 + (j 1).val; omega)
  · exact bias_block m c t (j 1) _ (by show _ = _; rw [e1]; show _ = win0_2.index t (1 : Fin 2) * 1024 + (j 1).val; omega) c0

end Cert.KernelIdeal.Blocks

end
-- ==== Proof.KernelRun.lean ====
import proofs.«133473_j8856222564675_2_alg».proof.Proof.Blocks

/-!
# The kernel's result array is the dense layer of the arguments

The output blocks written back by the 128 odd grid points tile the 16384 × 4096 result: entry (r, q) lies in the block
of the point with row tile r / 512, column tile q / 1024 and second half of the contraction. Each of those blocks is
the corresponding block of the dense layer, so the whole array is the dense layer.
-/

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Blocks

variable (m : (ℓ : Loc nD τ sig) → Buf (Elt Ideal) ℓ) (ρ : Dev nD → PrngReg)

/-- An index of the result is in point t's output block iff each coordinate is in the block's range on its axis. -/
theorem mem_blk (t : Fin cfg0.N) (i : S16384x4096.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v0).slice (win0_3.rect t)).set ↔ _
  rw [View.set_slice_whole, Rect.mem_set_unit]
  exact Iff.rfl

/-- Every index of the result is in the output block of some point that writes back. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 256 := N_0
  obtain ⟨t, ht⟩ : ∃ t : Fin cfg0.N, t.val = 64 * ((i 1).val / 1024) + 2 * ((i 0).val / 512) + 1 :=
    ⟨⟨64 * ((i 1).val / 1024) + 2 * ((i 0).val / 512) + 1, by rw [hN]; omega⟩, rfl⟩
  obtain ⟨-, -, -, -, -, -, d0, d1⟩ := idx_facts t
  refine ⟨t, (flush0_3 t).mpr (by omega), ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- After the run the result array is the dense layer of the arguments. -/
theorem final (c : Dev nD) : (dats m 0 c).arrAt 3 cfg0.N = result m c :=
  (dats m 0 c).arrAt_eq_of_cover 3 (result m c) (flushed_eq m c) cover

/-- The kernel's run: it ends with the result array at the dense layer and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.LibPointScatter.lean ====
/-
  A point scatter into a 2-D array — what `x.at[rows, cols].set(v)` lowers to: operand `[R, C]`, scatter indices
  `[N, 2]` (row `n` is the pair (row index, column index)), updates `[N]`, both operand axes inserted window axes
  named by the index vector's two components (`index_vector_dim = 1`) — read through its definition as a left fold
  over the update positions in row-major order.

  First the result index of update `n`: its start is the pair read SIGNED off row `n` of the scatter indices, its
  window coordinate is zero on both axes, so the update lands at `(r, c)` when `0 ≤ r < R` and `0 ≤ c < C` and is
  dropped otherwise (`resultIdx?_eq`, `resultIdx?_of`, `resultIdx?_ix1`).

  Then the restriction to a sub-box of rows (`scatter_restrict`, and `scatter_set_restrict` for the body that
  returns the update): take the same scatter into an operand `[R', C]` with `R ≤ R'` rows, with scatter indices that
  read the same signed pairs and an operand that agrees with the small one on the rows below `R`. Both scatters fold
  over the same update positions in the same order. An update addressed to `(r, c)` with `r < R` lands at the same
  place in both; one with `R ≤ r < R'` lands only in the larger operand, in a row a position `(p, q)` with `p < R`
  never sees; every other update is dropped by both. So "the two accumulators agree on the rows below `R`" is kept by
  every step of the fold, and the two results agree there.
-/
import Idealize.ShloMosaic.PureOps.ShapeOps
import Idealize.ShloMosaic.Lib.ValueIdx

namespace Cert.LibPointScatter

open Idealize.ShloMosaic Idealize.ShloMosaic.ValueIdx

/-! ## The three shapes and the dimension numbers -/

/-- The operand's shape: `R` rows of `C` columns. -/
abbrev opS (R C : Nat) : Shape := ⟨2, ![R, C]⟩
/-- The scatter indices' shape: `N` index vectors of two components. -/
abbrev siS (N : Nat) : Shape := ⟨2, ![N, 2]⟩
/-- The updates' shape: `N` scalars. -/
abbrev updS (N : Nat) : Shape := ⟨1, ![N]⟩

/-- The dimension numbers' conditions for a point scatter of `N` scalars into an `[R, C]` operand: no update window
    axes, both operand axes inserted, index component `k` naming operand axis `k`, the index vector on axis 1. -/
abbrev PointWF (R C N : Nat) : Prop := ScatterDims.WF (opS R C) (siS N) (updS N) [] [0, 1] [0, 1] 1

/-- The point scatter's dimension numbers, from ANY proof of their conditions. -/
abbrev pointDims (R C N : Nat) (wf : PointWF R C N) : ScatterDims (opS R C) (siS N) (updS N) :=
  ScatterDims.mk [] [0, 1] [0, 1] 1 wf

variable {R C N : Nat}

/-! ## The result index of one update -/

/-- Both operand axes are inserted window axes: none is kept for a window. -/
theorem sKept_eq (wf : PointWF R C N) : (pointDims R C N wf).sKept = [] := rfl

/-- The window coordinate is zero on both operand axes (the update window is a single element). -/
theorem window_eq (wf : PointWF R C N) (j : (updS N).Idx) (a : Fin 2) :
    (pointDims R C N wf).window j a = 0 := by
  unfold ScatterDims.window
  rw [dif_neg]
  rw [sKept_eq]; exact List.not_mem_nil

/-- Update `j` reads component `c` of its start index at position `(j, c)` of the scatter indices. -/
theorem siIdx_eq (wf : PointWF R C N) (j : (updS N).Idx) (c : Fin 2) :
    (pointDims R C N wf).siIdx j c = ix2 (j 0) c := by
  funext b
  match b with
  | ⟨0, _⟩ => rfl
  | ⟨1, _⟩ => rfl

/-- The start of update `j` on operand axis `a` is entry `(j, a)` of the scatter indices, read signed. -/
theorem start_eq {w : Nat} (wf : PointWF R C N) (j : (updS N).Idx) (idx : IVec (siS N) w) (a : Fin 2) :
    (pointDims R C N wf).start j idx a = (idx (ix2 (j 0) a)).toInt := by
  have hmem : a ∈ (pointDims R C N wf).scatterDimsToOperandDims := by
    show a ∈ ([0, 1] : List (Fin 2))
    match a with
    | ⟨0, _⟩ => simp
    | ⟨1, _⟩ => simp
  unfold ScatterDims.start
  rw [dif_pos hmem, siIdx_eq]
  congr 2
  match a with
  | ⟨0, _⟩ => rfl
  | ⟨1, _⟩ => rfl

/-- The result index of update `j`: with `r`, `c` the signed entries `(j, 0)`, `(j, 1)` of the scatter indices, the
    update lands at `(r, c)` when `0 ≤ r < R` and `0 ≤ c < C`, and is dropped otherwise. -/
theorem resultIdx?_eq {w : Nat} (wf : PointWF R C N) (j : (updS N).Idx) (idx : IVec (siS N) w) :
    (pointDims R C N wf).resultIdx? j idx =
      if h : (0 ≤ (idx (ix2 (j 0) 0)).toInt ∧ (idx (ix2 (j 0) 0)).toInt < R) ∧
             (0 ≤ (idx (ix2 (j 0) 1)).toInt ∧ (idx (ix2 (j 0) 1)).toInt < C) then
        some (ix2 (⟨(idx (ix2 (j 0) 0)).toInt.toNat, by omega⟩ : Fin R)
                  (⟨(idx (ix2 (j 0) 1)).toInt.toNat, by omega⟩ : Fin C))
      else none := by
  unfold ScatterDims.resultIdx?
  by_cases h : (0 ≤ (idx (ix2 (j 0) 0)).toInt ∧ (idx (ix2 (j 0) 0)).toInt < R) ∧
             (0 ≤ (idx (ix2 (j 0) 1)).toInt ∧ (idx (ix2 (j 0) 1)).toInt < C)
  · have hall : ∀ a : Fin 2, 0 ≤ (pointDims R C N wf).start j idx a + ((pointDims R C N wf).window j a : Int) ∧
        (pointDims R C N wf).start j idx a + ((pointDims R C N wf).window j a : Int) < ((opS R C).size a : Int) := by
      intro a
      rw [start_eq, window_eq]
      match a with
      | ⟨0, _⟩ => simpa using h.1
      | ⟨1, _⟩ => simpa using h.2
    rw [dif_pos hall, dif_pos h]
    congr 1
    funext a
    match a with
    | ⟨0, _⟩ => apply Fin.ext; simp [start_eq, window_eq]
    | ⟨1, _⟩ => apply Fin.ext; simp [start_eq, window_eq]
  · rw [dif_neg h, dif_neg]
    intro hall
    apply h
    have h0 := hall 0
    have h1 := hall 1
    rw [start_eq, window_eq] at h0 h1
    exact ⟨by simpa using h0, by simpa using h1⟩

/-- The same with the two signed entries named: if entry `(j, 0)` is `rr` and entry `(j, 1)` is `cc`, update `j` lands
    at `(rr, cc)` when `0 ≤ rr < R` and `0 ≤ cc < C`, and is dropped otherwise. -/
theorem resultIdx?_of {w : Nat} (wf : PointWF R C N) (j : (updS N).Idx) (idx : IVec (siS N) w)
    (rr cc : Int) (hrr : (idx (ix2 (j 0) 0)).toInt = rr) (hcc : (idx (ix2 (j 0) 1)).toInt = cc) :
    (pointDims R C N wf).resultIdx? j idx =
      if h : (0 ≤ rr ∧ rr < R) ∧ (0 ≤ cc ∧ cc < C) then
        some (ix2 (⟨rr.toNat, by omega⟩ : Fin R) (⟨cc.toNat, by omega⟩ : Fin C))
      else none := by
  subst hrr; subst hcc; exact resultIdx?_eq wf j idx

/-- The same at the update index written by its coordinate `n`. -/
theorem resultIdx?_ix1 {w : Nat} (wf : PointWF R C N) (n : Fin N) (idx : IVec (siS N) w) :
    (pointDims R C N wf).resultIdx? (ix1 n) idx =
      if h : (0 ≤ (idx (ix2 n 0)).toInt ∧ (idx (ix2 n 0)).toInt < R) ∧
             (0 ≤ (idx (ix2 n 1)).toInt ∧ (idx (ix2 n 1)).toInt < C) then
        some (ix2 (⟨(idx (ix2 n 0)).toInt.toNat, by omega⟩ : Fin R)
                  (⟨(idx (ix2 n 1)).toInt.toNat, by omega⟩ : Fin C))
      else none :=
  resultIdx?_eq wf (ix1 n) idx

/-- Two rank-2 indices written by coordinates are equal exactly when their coordinates are. -/
theorem ix2_eq_iff {n0 n1 : Nat} (a a' : Fin n0) (b b' : Fin n1) :
    ix2 a b = ix2 a' b' ↔ a = a' ∧ b = b' := by
  constructor
  · intro h; exact ⟨congrFun h 0, congrFun h 1⟩
  · rintro ⟨rfl, rfl⟩; rfl

/-! ## The scatter as a fold of one step -/

/-- One step of the scatter's fold: update index `j` overwrites the element at its result index by the body applied
    to that element and the update's, or is dropped when its result index is outside the operand. -/
def step {s si u : Shape} {α : Type} {w : Nat} (d : ScatterDims s si u) (f : α → α → α) (idx : IVec si w)
    (upd : u.Idx → α) (r : s.Idx → α) (j : u.Idx) : s.Idx → α :=
  match d.resultIdx? j idx with
  | some i => fun i' => if i' = i then f (r i) (upd j) else r i'
  | none => r

/-- The scatter is the left fold of `step` over the update indices in row-major order (any shapes, any dimension
    numbers, any body). -/
theorem scatter_eq_foldl {s si u : Shape} {α : Type} {w : Nat} (d : ScatterDims s si u) (f : α → α → α)
    (x : s.Idx → α) (idx : IVec si w) (upd : u.Idx → α) :
    Host.scatter d f x idx upd
      = (List.finRange u.numel).foldl (fun r n => step d f idx upd r (u.rowMajor.symm n)) x := by
  unfold Host.scatter
  refine congrArg (fun g => List.foldl g x (List.finRange u.numel)) ?_
  funext r n
  unfold step
  generalize d.resultIdx? (u.rowMajor.symm n) idx = o
  cases o <;> rfl

/-! ## Restriction to a sub-box of rows -/

/-- ONE STEP keeps "the two accumulators agree on the rows below `R`": let the larger operand have `R' ≥ R` rows, the
    two scatter indices read the same signed pairs, the two updates be equal, and the accumulators `x'`, `x` agree at
    every `(p, q)` with `p < R`. Update `j`, addressed to `(rr, cc)`: with `0 ≤ rr < R` and `0 ≤ cc < C` it overwrites
    position `(rr, cc)` of both, by the body applied to equal elements; with `R ≤ rr < R'` it overwrites only the larger
    accumulator, in row `rr ≥ R`; otherwise it is dropped by both. In every case the new accumulators agree at `(p, q)`. -/
theorem step_restrict {α : Type} {w : Nat} {R' : Nat} (hR : R ≤ R')
    (wf : PointWF R C N) (wf' : PointWF R' C N) (f : α → α → α)
    (idx idx' : IVec (siS N) w) (upd upd' : (updS N).Idx → α)
    (hrow : ∀ n : Fin N, (idx' (ix2 n 0)).toInt = (idx (ix2 n 0)).toInt)
    (hcol : ∀ n : Fin N, (idx' (ix2 n 1)).toInt = (idx (ix2 n 1)).toInt)
    (hupd : ∀ j, upd' j = upd j)
    (j : (updS N).Idx)
    (x : (opS R C).Idx → α) (x' : (opS R' C).Idx → α)
    (h : ∀ (p : Fin R) (q : Fin C), x' (ix2 ⟨p.val, by omega⟩ q) = x (ix2 p q))
    (p : Fin R) (q : Fin C) :
    step (pointDims R' C N wf') f idx' upd' x' j (ix2 ⟨p.val, by omega⟩ q)
      = step (pointDims R C N wf) f idx upd x j (ix2 p q) := by
  obtain ⟨rr, hrr⟩ : ∃ rr, (idx (ix2 (j 0) 0)).toInt = rr := ⟨_, rfl⟩
  obtain ⟨cc, hcc⟩ : ∃ cc, (idx (ix2 (j 0) 1)).toInt = cc := ⟨_, rfl⟩
  unfold step
  rw [resultIdx?_of wf' j idx' rr cc ((hrow (j 0)).trans hrr) ((hcol (j 0)).trans hcc),
      resultIdx?_of wf j idx rr cc hrr hcc, hupd j]
  by_cases hc : 0 ≤ cc ∧ cc < (C : Int)
  · by_cases hr : 0 ≤ rr ∧ rr < (R : Int)
    · -- the update lands inside the small operand: at the same place in both
      have hsmall : (0 ≤ rr ∧ rr < (R : Int)) ∧ (0 ≤ cc ∧ cc < (C : Int)) := ⟨hr, hc⟩
      have hbig : (0 ≤ rr ∧ rr < (R' : Int)) ∧ (0 ≤ cc ∧ cc < (C : Int)) := ⟨⟨hr.1, by omega⟩, hc⟩
      rw [dif_pos hbig, dif_pos hsmall]
      have hx := h ⟨rr.toNat, by omega⟩ ⟨cc.toNat, by omega⟩
      by_cases he : p.val = rr.toNat ∧ q.val = cc.toNat
      · show (if _ then _ else _) = (if _ then _ else _)
        rw [if_pos ((ix2_eq_iff _ _ _ _).2 ⟨Fin.ext he.1, Fin.ext he.2⟩),
            if_pos ((ix2_eq_iff _ _ _ _).2 ⟨Fin.ext he.1, Fin.ext he.2⟩), hx]
      · show (if _ then _ else _) = (if _ then _ else _)
        rw [if_neg (fun hh => he ⟨congrArg Fin.val ((ix2_eq_iff _ _ _ _).1 hh).1,
              congrArg Fin.val ((ix2_eq_iff _ _ _ _).1 hh).2⟩),
            if_neg (fun hh => he ⟨congrArg Fin.val ((ix2_eq_iff _ _ _ _).1 hh).1,
              congrArg Fin.val ((ix2_eq_iff _ _ _ _).1 hh).2⟩), h p q]
    · have hsmall : ¬ ((0 ≤ rr ∧ rr < (R : Int)) ∧ (0 ≤ cc ∧ cc < (C : Int))) := fun hh => hr hh.1
      by_cases hr' : 0 ≤ rr ∧ rr < (R' : Int)
      · -- the update lands in the larger operand only, in a row at or beyond `R`: position `(p, q)` is not it
        have hbig : (0 ≤ rr ∧ rr < (R' : Int)) ∧ (0 ≤ cc ∧ cc < (C : Int)) := ⟨hr', hc⟩
        rw [dif_pos hbig, dif_neg hsmall]
        show (if _ then _ else _) = _
        rw [if_neg, h p q]
        intro hh
        have := congrArg Fin.val ((ix2_eq_iff _ _ _ _).1 hh).1
        simp at this
        omega
      · -- the row is outside both operands: dropped by both
        have hbig : ¬ ((0 ≤ rr ∧ rr < (R' : Int)) ∧ (0 ≤ cc ∧ cc < (C : Int))) := fun hh => hr' hh.1
        rw [dif_neg hbig, dif_neg hsmall]
        exact h p q
  · -- the column is outside both operands: dropped by both
    have hsmall : ¬ ((0 ≤ rr ∧ rr < (R : Int)) ∧ (0 ≤ cc ∧ cc < (C : Int))) := fun hh => hc hh.2
    have hbig : ¬ ((0 ≤ rr ∧ rr < (R' : Int)) ∧ (0 ≤ cc ∧ cc < (C : Int))) := fun hh => hc hh.2
    rw [dif_neg hbig, dif_neg hsmall]
    exact h p q

/-- The fold over ANY list of update positions keeps the agreement on the rows below `R`: induction on the list, both
    accumulators general, each step by `step_restrict`. -/
theorem foldl_restrict {α : Type} {w : Nat} {R' : Nat} (hR : R ≤ R')
    (wf : PointWF R C N) (wf' : PointWF R' C N) (f : α → α → α)
    (idx idx' : IVec (siS N) w) (upd upd' : (updS N).Idx → α)
    (hrow : ∀ n : Fin N, (idx' (ix2 n 0)).toInt = (idx (ix2 n 0)).toInt)
    (hcol : ∀ n : Fin N, (idx' (ix2 n 1)).toInt = (idx (ix2 n 1)).toInt)
    (hupd : ∀ j, upd' j = upd j)
    (l : List (Fin (updS N).numel)) :
    ∀ (x : (opS R C).Idx → α) (x' : (opS R' C).Idx → α),
      (∀ (p : Fin R) (q : Fin C), x' (ix2 ⟨p.val, by omega⟩ q) = x (ix2 p q)) →
      ∀ (p : Fin R) (q : Fin C),
        l.foldl (fun r n => step (pointDims R' C N wf') f idx' upd' r ((updS N).rowMajor.symm n)) x'
            (ix2 ⟨p.val, by omega⟩ q)
        = l.foldl (fun r n => step (pointDims R C N wf) f idx upd r ((updS N).rowMajor.symm n)) x (ix2 p q) := by
  induction l with
  | nil => intro x x' h p q; exact h p q
  | cons n l ih =>
    intro x x' h
    rw [List.foldl_cons, List.foldl_cons]
    apply ih
    intro p q
    exact step_restrict hR wf wf' f idx idx' upd upd' hrow hcol hupd ((updS N).rowMajor.symm n) x x' h p q

/-- RESTRICTION TO A SUB-BOX, any body `f`: a point scatter into an `[R', C]` operand and the same scatter into an
    `[R, C]` operand, `R ≤ R'`, whose scatter indices read the same signed (row, column) pairs, whose updates are
    equal and whose operands agree on the rows below `R`, have results that agree on the rows below `R`. -/
theorem scatter_restrict {α : Type} {w : Nat} {R' : Nat} (hR : R ≤ R')
    (wf : PointWF R C N) (wf' : PointWF R' C N) (f : α → α → α)
    (x : (opS R C).Idx → α) (x' : (opS R' C).Idx → α)
    (idx idx' : IVec (siS N) w) (upd upd' : (updS N).Idx → α)
    (hrow : ∀ n : Fin N, (idx' (ix2 n 0)).toInt = (idx (ix2 n 0)).toInt)
    (hcol : ∀ n : Fin N, (idx' (ix2 n 1)).toInt = (idx (ix2 n 1)).toInt)
    (hupd : ∀ j, upd' j = upd j)
    (hx : ∀ (p : Fin R) (q : Fin C), x' (ix2 ⟨p.val, by omega⟩ q) = x (ix2 p q))
    (p : Fin R) (q : Fin C) :
    Host.scatter (pointDims R' C N wf') f x' idx' upd' (ix2 ⟨p.val, by omega⟩ q)
      = Host.scatter (pointDims R C N wf) f x idx upd (ix2 p q) := by
  rw [scatter_eq_foldl, scatter_eq_foldl]
  exact foldl_restrict hR wf wf' f idx idx' upd upd' hrow hcol hupd _ x x' hx p q

/-- RESTRICTION TO A SUB-BOX for `x.at[rows, cols].set(v)` (the body returns the update), with the shapes and the
    dimension-number record written out: for `R ≤ R'`, 32-bit scatter indices reading the same signed pairs, one
    update array and operands that agree on the rows below `R`, the two results agree on the rows below `R`. -/
theorem scatter_set_restrict {α : Type} {R R' C N : Nat} (hR : R ≤ R')
    (wf : ScatterDims.WF ⟨2, ![R, C]⟩ ⟨2, ![N, 2]⟩ ⟨1, ![N]⟩ [] [0, 1] [0, 1] 1)
    (wf' : ScatterDims.WF ⟨2, ![R', C]⟩ ⟨2, ![N, 2]⟩ ⟨1, ![N]⟩ [] [0, 1] [0, 1] 1)
    (x : (⟨2, ![R, C]⟩ : Shape).Idx → α) (x' : (⟨2, ![R', C]⟩ : Shape).Idx → α)
    (idx idx' : IVec ⟨2, ![N, 2]⟩ 32) (upd : (⟨1, ![N]⟩ : Shape).Idx → α)
    (hrow : ∀ n : Fin N, (idx' (ix2 n (0 : Fin 2))).toInt = (idx (ix2 n (0 : Fin 2))).toInt)
    (hcol : ∀ n : Fin N, (idx' (ix2 n (1 : Fin 2))).toInt = (idx (ix2 n (1 : Fin 2))).toInt)
    (hx : ∀ (p : Fin R) (q : Fin C), x' (ix2 ⟨p.val, by omega⟩ q) = x (ix2 p q))
    (p : Fin R) (q : Fin C) :
    Host.scatter (ScatterDims.mk [] [0, 1] [0, 1] 1 wf' : ScatterDims ⟨2, ![R', C]⟩ ⟨2, ![N, 2]⟩ ⟨1, ![N]⟩)
        (fun _ b => b) x' idx' upd (ix2 ⟨p.val, by omega⟩ q)
      = Host.scatter (ScatterDims.mk [] [0, 1] [0, 1] 1 wf : ScatterDims ⟨2, ![R, C]⟩ ⟨2, ![N, 2]⟩ ⟨1, ![N]⟩)
        (fun _ b => b) x idx upd (ix2 p q) :=
  scatter_restrict hR wf wf' (fun _ b => b) x x' idx idx' upd upd hrow hcol (fun _ => rfl) hx p q

end Cert.LibPointScatter
-- ==== Proof.LibScatterSwap.lean ====
/-
  Exchanging the two axes of a point scatter into a 2-D array.

  Take a point scatter of `N` scalars into an operand `[R, C]` (scatter indices `[N, 2]`, row `n` the signed pair
  (row index, column index), both operand axes inserted window axes), and a second point scatter of the same `N`
  scalars into an operand `[C, R]` whose index pairs are the first one's pairs with the two components exchanged and
  whose operand is the first one's transposed: `x' (q, p) = x (p, q)`. Then the second result is the first result
  transposed (`scatter_swap`, and `scatter_set_swap` for the body that returns the update, with the shapes and the
  dimension-number record written out). Nothing is assumed about `R` and `C`: the operand need not be square.

  Both scatters fold over the same update positions in the same row-major order. Update `j`, addressed to `(r, c)`
  in the first scatter, is addressed to `(c, r)` in the second. The condition for landing, `0 ≤ r < R` and
  `0 ≤ c < C`, is symmetric under the exchange (the second operand has `C` rows and `R` columns), so the update lands
  in both or is dropped by both. When it lands, it overwrites position `(r, c)` of the one accumulator and position
  `(c, r)` of the other, by the body applied to elements that are equal by the invariant and to equal updates; and a
  position `(p, q)` is the overwritten one in the first exactly when `(q, p)` is the overwritten one in the second.
  So "the second accumulator is the first one transposed" is kept by every step of the fold (`step_swap`), hence by
  the fold over any list of update positions (`foldl_swap`), hence by the scatter.
-/
import Idealize.ShloMosaic.PureOps.ShapeOps
import Idealize.ShloMosaic.Lib.ValueIdx
import proofs.«133473_j8856222564675_2_alg».proof.Proof.LibPointScatter

namespace Cert.LibScatterSwap

open Idealize.ShloMosaic Idealize.ShloMosaic.ValueIdx
open Cert.LibPointScatter

variable {R C N : Nat}

/-! ## One step -/

/-- ONE STEP keeps "the second accumulator is the first one transposed": let the second scatter's index pairs be the
    first one's with the components exchanged, the two updates be equal, and `x' (q, p) = x (p, q)` for all `p`, `q`.
    Update `j` is addressed to `(rr, cc)` in the first scatter and to `(cc, rr)` in the second. With `0 ≤ rr < R` and
    `0 ≤ cc < C` it overwrites position `(rr, cc)` of `x` and position `(cc, rr)` of `x'`, by the body applied to equal
    elements and equal updates, and `(p, q) = (rr, cc)` exactly when `(q, p) = (cc, rr)`; otherwise it is dropped by
    both. In either case the new accumulators are again transposes of each other. -/
theorem step_swap {α : Type} {w : Nat}
    (wf : PointWF R C N) (wf' : PointWF C R N) (f : α → α → α)
    (idx idx' : IVec (siS N) w) (upd upd' : (updS N).Idx → α)
    (h01 : ∀ n : Fin N, (idx' (ix2 n 0)).toInt = (idx (ix2 n 1)).toInt)
    (h10 : ∀ n : Fin N, (idx' (ix2 n 1)).toInt = (idx (ix2 n 0)).toInt)
    (hupd : ∀ j, upd' j = upd j)
    (j : (updS N).Idx)
    (x : (opS R C).Idx → α) (x' : (opS C R).Idx → α)
    (h : ∀ (p : Fin R) (q : Fin C), x' (ix2 q p) = x (ix2 p q))
    (p : Fin R) (q : Fin C) :
    step (pointDims C R N wf') f idx' upd' x' j (ix2 q p)
      = step (pointDims R C N wf) f idx upd x j (ix2 p q) := by
  obtain ⟨rr, hrr⟩ : ∃ rr, (idx (ix2 (j 0) 0)).toInt = rr := ⟨_, rfl⟩
  obtain ⟨cc, hcc⟩ : ∃ cc, (idx (ix2 (j 0) 1)).toInt = cc := ⟨_, rfl⟩
  unfold step
  rw [resultIdx?_of wf' j idx' cc rr ((h01 (j 0)).trans hcc) ((h10 (j 0)).trans hrr),
      resultIdx?_of wf j idx rr cc hrr hcc, hupd j]
  by_cases hin : (0 ≤ rr ∧ rr < (R : Int)) ∧ (0 ≤ cc ∧ cc < (C : Int))
  · -- the update lands in both: at `(rr, cc)` in the one, at `(cc, rr)` in the other
    have hin' : (0 ≤ cc ∧ cc < (C : Int)) ∧ (0 ≤ rr ∧ rr < (R : Int)) := ⟨hin.2, hin.1⟩
    rw [dif_pos hin', dif_pos hin]
    have hx := h ⟨rr.toNat, by omega⟩ ⟨cc.toNat, by omega⟩
    by_cases he : p.val = rr.toNat ∧ q.val = cc.toNat
    · show (if _ then _ else _) = (if _ then _ else _)
      rw [if_pos ((ix2_eq_iff _ _ _ _).2 ⟨Fin.ext he.2, Fin.ext he.1⟩),
          if_pos ((ix2_eq_iff _ _ _ _).2 ⟨Fin.ext he.1, Fin.ext he.2⟩), hx]
    · show (if _ then _ else _) = (if _ then _ else _)
      rw [if_neg (fun hh => he ⟨congrArg Fin.val ((ix2_eq_iff _ _ _ _).1 hh).2,
            congrArg Fin.val ((ix2_eq_iff _ _ _ _).1 hh).1⟩),
          if_neg (fun hh => he ⟨congrArg Fin.val ((ix2_eq_iff _ _ _ _).1 hh).1,
            congrArg Fin.val ((ix2_eq_iff _ _ _ _).1 hh).2⟩), h p q]
  · -- the landing condition is symmetric under the exchange: dropped by both
    have hin' : ¬ ((0 ≤ cc ∧ cc < (C : Int)) ∧ (0 ≤ rr ∧ rr < (R : Int))) := fun hh => hin ⟨hh.2, hh.1⟩
    rw [dif_neg hin', dif_neg hin]
    exact h p q

/-! ## The fold over any list of update positions -/

/-- The fold over ANY list of update positions keeps "the second accumulator is the first one transposed": induction
    on the list, both accumulators general, each step by `step_swap`. -/
theorem foldl_swap {α : Type} {w : Nat}
    (wf : PointWF R C N) (wf' : PointWF C R N) (f : α → α → α)
    (idx idx' : IVec (siS N) w) (upd upd' : (updS N).Idx → α)
    (h01 : ∀ n : Fin N, (idx' (ix2 n 0)).toInt = (idx (ix2 n 1)).toInt)
    (h10 : ∀ n : Fin N, (idx' (ix2 n 1)).toInt = (idx (ix2 n 0)).toInt)
    (hupd : ∀ j, upd' j = upd j)
    (l : List (Fin (updS N).numel)) :
    ∀ (x : (opS R C).Idx → α) (x' : (opS C R).Idx → α),
      (∀ (p : Fin R) (q : Fin C), x' (ix2 q p) = x (ix2 p q)) →
      ∀ (p : Fin R) (q : Fin C),
        l.foldl (fun r n => step (pointDims C R N wf') f idx' upd' r ((updS N).rowMajor.symm n)) x' (ix2 q p)
        = l.foldl (fun r n => step (pointDims R C N wf) f idx upd r ((updS N).rowMajor.symm n)) x (ix2 p q) := by
  induction l with
  | nil => intro x x' h p q; exact h p q
  | cons n l ih =>
    intro x x' h
    rw [List.foldl_cons, List.foldl_cons]
    apply ih
    intro p q
    exact step_swap wf wf' f idx idx' upd upd' h01 h10 hupd ((updS N).rowMajor.symm n) x x' h p q

/-! ## The scatter -/

/-- EXCHANGING THE AXES, any body `f`: a point scatter into an `[R, C]` operand and a point scatter into a `[C, R]`
    operand whose scatter indices read the first one's signed pairs with the two components exchanged, whose updates
    are equal and whose operand is the first one's transposed, have results that are transposes of each other. -/
theorem scatter_swap {α : Type} {w : Nat} {R C N : Nat}
    (wf : PointWF R C N) (wf' : PointWF C R N) (f : α → α → α)
    (x : (opS R C).Idx → α) (x' : (opS C R).Idx → α)
    (idx idx' : IVec (siS N) w) (upd upd' : (updS N).Idx → α)
    (h01 : ∀ n : Fin N, (idx' (ix2 n 0)).toInt = (idx (ix2 n 1)).toInt)
    (h10 : ∀ n : Fin N, (idx' (ix2 n 1)).toInt = (idx (ix2 n 0)).toInt)
    (hupd : ∀ j, upd' j = upd j)
    (hx : ∀ (p : Fin R) (q : Fin C), x' (ix2 q p) = x (ix2 p q))
    (p : Fin R) (q : Fin C) :
    Host.scatter (pointDims C R N wf') f x' idx' upd' (ix2 q p)
      = Host.scatter (pointDims R C N wf) f x idx upd (ix2 p q) := by
  rw [scatter_eq_foldl, scatter_eq_foldl]
  exact foldl_swap wf wf' f idx idx' upd upd' h01 h10 hupd _ x x' hx p q

/-- EXCHANGING THE AXES for `x.at[rows, cols].set(v)` (the body returns the update), with the shapes and the
    dimension-number record written out: for 32-bit scatter indices of which the second reads the first one's signed
    pairs with the components exchanged, one update array, and a second operand that is the first one transposed, the
    second result is the first result transposed. -/
theorem scatter_set_swap {α : Type} {R C N : Nat}
    (wf : ScatterDims.WF ⟨2, ![R, C]⟩ ⟨2, ![N, 2]⟩ ⟨1, ![N]⟩ [] [0, 1] [0, 1] 1)
    (wf' : ScatterDims.WF ⟨2, ![C, R]⟩ ⟨2, ![N, 2]⟩ ⟨1, ![N]⟩ [] [0, 1] [0, 1] 1)
    (x : (⟨2, ![R, C]⟩ : Shape).Idx → α) (x' : (⟨2, ![C, R]⟩ : Shape).Idx → α)
    (idx idx' : IVec ⟨2, ![N, 2]⟩ 32) (upd : (⟨1, ![N]⟩ : Shape).Idx → α)
    (h01 : ∀ n : Fin N, (idx' (ix2 n (0 : Fin 2))).toInt = (idx (ix2 n (1 : Fin 2))).toInt)
    (h10 : ∀ n : Fin N, (idx' (ix2 n (1 : Fin 2))).toInt = (idx (ix2 n (0 : Fin 2))).toInt)
    (hx : ∀ (p : Fin R) (q : Fin C), x' (ix2 q p) = x (ix2 p q))
    (p : Fin R) (q : Fin C) :
    Host.scatter (ScatterDims.mk [] [0, 1] [0, 1] 1 wf' : ScatterDims ⟨2, ![C, R]⟩ ⟨2, ![N, 2]⟩ ⟨1, ![N]⟩)
        (fun _ b => b) x' idx' upd (ix2 q p)
      = Host.scatter (ScatterDims.mk [] [0, 1] [0, 1] 1 wf : ScatterDims ⟨2, ![R, C]⟩ ⟨2, ![N, 2]⟩ ⟨1, ![N]⟩)
        (fun _ b => b) x idx upd (ix2 p q) :=
  scatter_swap wf wf' (fun _ b => b) x x' idx idx' upd upd h01 h10 (fun _ => rfl) hx p q

end Cert.LibScatterSwap
-- ==== Proof.RefWeights.lean ====
/-
  The reference's weight array is the kernel's host-side weight array.

  The reference wraps the row indices and the column indices (an entry below zero has the extent 4096 added), lays
  them side by side as the pairs (wrapped row index, wrapped column index), scatters the values at those pairs into a
  4096 × 4096 array of zeros, and transposes the result. The kernel's host code lays the same two wrapped vectors side
  by side in the other order, as the pairs (wrapped column index, wrapped row index), scatters the same values at those
  pairs into a 4096 × 4096 array of zeros, and casts the result to bf16.

  Entry `(k, n)` of the reference's transposed array is entry `(n, k)` of its scatter. The two scatters' index pairs
  are each other's with the two components exchanged (`pairs_kernel_0` … `pairs_ref_1` read each side-by-side array
  at a pair's component: the first piece at component 0, the second at component 1, each piece a vector read at the
  pair's position; and the two programs' wrapped vectors are the same select / compare / add term), the updates are
  the same array, and the two operands are both constantly zero, so each is the other transposed. By the exchange of
  the axes of a point scatter, entry `(n, k)` of the reference's scatter is entry `(k, n)` of the kernel's. On the
  extended reals the cast to bf16 is the identity. Hence `ref_weights`.
-/
import proofs.«133473_j8856222564675_2_alg».proof.Proof.HostTerms
import proofs.«133473_j8856222564675_2_alg».proof.Proof.Gen.ReferenceIdeal.Read
import proofs.«133473_j8856222564675_2_alg».proof.Proof.LibScatterSwap
import Idealize.ShloMosaic.Lib.Pipeline.Value
import Idealize.ShloMosaic.Lib.ValueIdx
import Idealize.ShloMosaic.PureOps.Ideal

namespace Cert.RefWeights

open Idealize.ShloMosaic Idealize.ShloMosaic.ValueIdx

section Pairs

variable {F : FTy → Type} [FloatOps F]

/-! ## The kernel's index pairs, read at a component -/

/-- A vector of 8387998 entries laid out as one column, read at row `j`, is the vector at `j`. -/
theorem column_kernel (y : (⟨Cert.KernelIdeal.S8387998, .i32⟩ : BufTy).Contents (Elt F)) (j : Fin 8387998) :
    broadcastInDim Cert.KernelIdeal.S8387998x1 ![0] Cert.KernelIdeal.Gen.bcast_S8387998_S8387998x1_0 y
        (ix2 j (0 : Fin 1)) = y (ix1 j) :=
  broadcastInDim_apply _ Cert.KernelIdeal.Gen.bcast_S8387998_S8387998x1_0 y (ix2 j (0 : Fin 1)) (ix1 j)
    (fun a => match a with
      | ⟨0, _⟩ => by show j.val = if (8387998 : Nat) = 1 then 0 else j.val; rw [if_neg (by decide)])

/-- Component 0 of the kernel's pair `j` is the wrapped column index (from the third argument) at `j`. -/
theorem pairs_kernel_0 (x2 x3 : (⟨Cert.KernelIdeal.S8387998, .i32⟩ : BufTy).Contents (Elt F)) (j : Fin 8387998) :
    Cert.KernelIdeal.Host.pairs (F := F) x2 x3 (ix2 j (0 : Fin 2))
      = Cert.KernelIdeal.Host.wrapIdx (F := F) x3 (ix1 j) := by
  unfold Cert.KernelIdeal.Host.pairs
  refine (concatenate_pair_apply_left (t := Cert.KernelIdeal.S8387998x2) (s₁ := Cert.KernelIdeal.S8387998x1)
    (s₂ := Cert.KernelIdeal.S8387998x1) (1 : Fin 2) _ _ _ (ix2 j (0 : Fin 2)) rfl (ix2 j (0 : Fin 1))
    (fun b => ?_)).trans (column_kernel _ j)
  match b with
  | ⟨0, _⟩ => rfl
  | ⟨1, _⟩ => rfl

/-- Component 1 of the kernel's pair `j` is the wrapped row index (from the second argument) at `j`. -/
theorem pairs_kernel_1 (x2 x3 : (⟨Cert.KernelIdeal.S8387998, .i32⟩ : BufTy).Contents (Elt F)) (j : Fin 8387998) :
    Cert.KernelIdeal.Host.pairs (F := F) x2 x3 (ix2 j (1 : Fin 2))
      = Cert.KernelIdeal.Host.wrapIdx (F := F) x2 (ix1 j) := by
  unfold Cert.KernelIdeal.Host.pairs
  refine (concatenate_pair_apply_right (t := Cert.KernelIdeal.S8387998x2) (s₁ := Cert.KernelIdeal.S8387998x1)
    (s₂ := Cert.KernelIdeal.S8387998x1) (1 : Fin 2) _ _ _ (ix2 j (1 : Fin 2)) rfl rfl (ix2 j (0 : Fin 1))
    (fun b hb => ?_) rfl).trans (column_kernel _ j)
  match b, hb with
  | ⟨0, _⟩, _ => rfl
  | ⟨1, _⟩, hb => exact absurd rfl hb

/-! ## The reference's index pairs, read at a component -/

/-- Component 0 of the reference's pair `j` is the wrapped row index (from the second argument) at `j`. -/
theorem pairs_ref_0 (x2 x3 : (⟨Cert.ReferenceIdeal.S8387998, .i32⟩ : BufTy).Contents (Elt F)) (j : Fin 8387998) :
    Cert.ReferenceIdeal.Read.val_main_v13 (F := F) x2 x3 (ix2 j (0 : Fin 2))
      = Cert.ReferenceIdeal.Read.val_main_v5 (F := F) x2 (ix1 j) := by
  unfold Cert.ReferenceIdeal.Read.val_main_v13
  refine (concatenate_pair_apply_left (t := Cert.ReferenceIdeal.S8387998x2) (s₁ := Cert.ReferenceIdeal.S8387998x1)
    (s₂ := Cert.ReferenceIdeal.S8387998x1) (1 : Fin 2) _ _ _ (ix2 j (0 : Fin 2)) rfl (ix2 j (0 : Fin 1))
    (fun b => ?_)).trans ?_
  · match b with
    | ⟨0, _⟩ => rfl
    | ⟨1, _⟩ => rfl
  · rw [Cert.ReferenceIdeal.Read.val_main_v11_apply]
    refine congrArg _ (funext fun a => ?_)
    match a with
    | ⟨0, _⟩ => rfl

/-- Component 1 of the reference's pair `j` is the wrapped column index (from the third argument) at `j`. -/
theorem pairs_ref_1 (x2 x3 : (⟨Cert.ReferenceIdeal.S8387998, .i32⟩ : BufTy).Contents (Elt F)) (j : Fin 8387998) :
    Cert.ReferenceIdeal.Read.val_main_v13 (F := F) x2 x3 (ix2 j (1 : Fin 2))
      = Cert.ReferenceIdeal.Read.val_main_v10 (F := F) x3 (ix1 j) := by
  unfold Cert.ReferenceIdeal.Read.val_main_v13
  refine (concatenate_pair_apply_right (t := Cert.ReferenceIdeal.S8387998x2) (s₁ := Cert.ReferenceIdeal.S8387998x1)
    (s₂ := Cert.ReferenceIdeal.S8387998x1) (1 : Fin 2) _ _ _ (ix2 j (1 : Fin 2)) rfl rfl (ix2 j (0 : Fin 1))
    (fun b hb => ?_) rfl).trans ?_
  · match b, hb with
    | ⟨0, _⟩, _ => rfl
    | ⟨1, _⟩, hb => exact absurd rfl hb
  · rw [Cert.ReferenceIdeal.Read.val_main_v12_apply]
    refine congrArg _ (funext fun a => ?_)
    match a with
    | ⟨0, _⟩ => rfl

/-- The two programs wrap an index vector by the same term, select (entry below zero) (entry plus 4096) (entry):
    here for the row indices (the second argument). -/
theorem wrap_row (x2 : (⟨Cert.ReferenceIdeal.S8387998, .i32⟩ : BufTy).Contents (Elt F)) :
    Cert.ReferenceIdeal.Read.val_main_v5 (F := F) x2 = Cert.KernelIdeal.Host.wrapIdx (F := F) x2 := rfl

/-- The same for the column indices (the third argument). -/
theorem wrap_col (x3 : (⟨Cert.ReferenceIdeal.S8387998, .i32⟩ : BufTy).Contents (Elt F)) :
    Cert.ReferenceIdeal.Read.val_main_v10 (F := F) x3 = Cert.KernelIdeal.Host.wrapIdx (F := F) x3 := rfl

end Pairs

/-! ## The two weight arrays -/

/-- Entry `(k, n)` of the reference's transposed scatter is entry `(k, n)` of the kernel's host-side weight array. -/
theorem ref_weights (x1 : (⟨Cert.ReferenceIdeal.S8387998, .f32⟩ : BufTy).Contents (Elt Ideal))
    (x2 x3 : (⟨Cert.ReferenceIdeal.S8387998, .i32⟩ : BufTy).Contents (Elt Ideal)) (k n : Fin 4096) :
    Cert.ReferenceIdeal.Read.val_main_v15 (F := Ideal) x1 x2 x3 (ix2 k n)
      = Cert.KernelIdeal.Host.weights (F := Ideal) x1 x2 x3 (ix2 k n) := by
  -- the transpose at `(k, n)` reads the scatter at `(n, k)`
  have hidx : Cert.ReferenceIdeal.Read.idx_main_v15 (ix2 k n) = ix2 n k := by
    funext a
    match a with
    | ⟨0, _⟩ => rfl
    | ⟨1, _⟩ => rfl
  rw [Cert.ReferenceIdeal.Read.val_main_v15_apply, hidx]
  -- the cast to bf16 is the identity on the extended reals, whatever the array
  have hcast : ∀ (y : (⟨Cert.KernelIdeal.S4096x4096, .f32⟩ : BufTy).Contents (Elt Ideal))
      (i : Cert.KernelIdeal.S4096x4096.Idx),
      truncf (F := Ideal) .bf16 y Cert.KernelIdeal.Gen.bitsLt_bf16_f32 i = y i := fun _ _ => rfl
  unfold Cert.KernelIdeal.Host.weights
  rw [hcast]
  unfold Cert.ReferenceIdeal.Read.val_main_v14 Cert.KernelIdeal.Host.scattered
  refine Cert.LibScatterSwap.scatter_set_swap (R := 4096) (C := 4096) (N := 8387998)
    Cert.KernelIdeal.Gen.scatter_S4096x4096_S8387998x2_S8387998_n_01_01_1_wf
    Cert.ReferenceIdeal.Gen.scatter_S4096x4096_S8387998x2_S8387998_n_01_01_1_wf
    _ _ _ _ x1 (fun j => ?_) (fun j => ?_) (fun p q => ?_) k n
  · -- component 0 of the reference's pair and component 1 of the kernel's: the wrapped row index
    rw [pairs_ref_0, pairs_kernel_1, wrap_row]
  · -- component 1 of the reference's pair and component 0 of the kernel's: the wrapped column index
    rw [pairs_ref_1, pairs_kernel_0, wrap_col]
  · -- both operands are constantly zero
    rfl

end Cert.RefWeights
-- ==== Proof.RefBridge.lean ====
import proofs.«133473_j8856222564675_2_alg».proof.Proof.Gen.ReferenceIdeal.Read
import proofs.«133473_j8856222564675_2_alg».proof.Proof.Spec
import proofs.«133473_j8856222564675_2_alg».proof.Proof.HostTerms
import proofs.«133473_j8856222564675_2_alg».proof.Proof.RefWeights

/-!
# The reference computes the same dense layer

The reference scatters the values into a weight array indexed (output feature, input feature), transposes it, multiplies
X by the transposed array contracting the 4096 input features in one product, and adds the bias repeated down the rows.
Entry (k, n) of its transposed array is entry (k, n) of the array the kernel's host code scatters directly in the
transposed layout. So entry by entry the reference's result is the dense layer of X, that weight array and the bias.
-/

noncomputable section

open scoped BigOperators

namespace Cert.RefBridge

open Idealize.ShloMosaic Idealize.ShloMosaic.ValueIdx Cert.ReferenceIdeal Cert.ReferenceIdeal.Read

/-- The reference's result is the dense layer over the kernel-side weight array. -/
theorem ref_eq_lin (x0 : (⟨S16384x4096, .f32⟩ : BufTy).Contents (Elt Ideal)) (x1 : (⟨S8387998, .f32⟩ : BufTy).Contents (Elt Ideal))
    (x2 x3 : (⟨S8387998, .i32⟩ : BufTy).Contents (Elt Ideal)) (x4 : (⟨S4096, .f32⟩ : BufTy).Contents (Elt Ideal)) :
    val_main_v19 (F := Ideal) x0 x1 x2 x3 x4
      = Cert.Spec.lin x0 (Cert.KernelIdeal.Host.weights (F := Ideal) x1 x2 x3) x4 := by
  funext i
  obtain ⟨r, n, rfl⟩ : ∃ (r : Fin 16384) (n : Fin 4096), i = ix2 r n := ⟨i 0, i 1, eq_ix2 i⟩
  rw [val_main_v19_apply, val_main_v16_apply, val_main_v18_apply, val_main_v17_apply]
  unfold Cert.Spec.lin
  show (∑ k : Fin 4096, x0 (lidx_main_v16 (ix2 r n) k) * val_main_v15 (F := Ideal) x1 x2 x3 (ridx_main_v16 (ix2 r n) k))
      + x4 (idx_main_v17 (idx_main_v18 (ix2 r n))) = _
  refine congrArg₂ (· + ·) (Finset.sum_congr rfl fun k _ => congrArg₂ (· * ·) ?_ ?_) ?_
  · exact congrArg x0 (funext fun a => match a with | ⟨0, _⟩ => rfl | ⟨1, _⟩ => rfl)
  · refine (congrArg (val_main_v15 (F := Ideal) x1 x2 x3) (?_ : ridx_main_v16 (ix2 r n) k = ix2 k n)).trans
      (Cert.RefWeights.ref_weights x1 x2 x3 k n)
    exact funext fun a => match a with | ⟨0, _⟩ => rfl | ⟨1, _⟩ => rfl
  · exact congrArg x4 (funext fun a => match a with | ⟨0, _⟩ => rfl)

end Cert.RefBridge

end
-- ==== Proof.lean ====
/- The certificate of a sparse linear layer: a kernel that scatters the CSR values into a dense weight array laid out
   (input feature, output feature), casts it to bf16 and multiplies X by it tile by tile on the matrix unit — the 4096
   contracted features in two halves of 2048 accumulated in a scratch block — adding the bias with the second half;
   against a reference that scatters the same values in the (output feature, input feature) layout, transposes, and
   computes X · Wᵀ + b in one product.

   On the extended reals both compute, entry by entry, Y (r, n) = (Σ over k of X (r, k) · W (k, n)) + b n with the same
   weight array W: exchanging the two components of every index pair of a point scatter transposes its result, the
   cast to bf16 is the identity, and a sum over 4096 terms is zero plus its first half plus its second half. Only
   commutativity and associativity of addition are used, so the finiteness of the inputs is not needed.

   The three frames: the kernel's two are the generated frame runs; the reference's is its generated run with the
   result dropped. The idealization rewrote nothing, so there is nothing to preserve. -/
import proofs.«133473_j8856222564675_2_alg».proof.Defs
import proofs.«133473_j8856222564675_2_alg».proof.Proof.Gen.Kernel
import proofs.«133473_j8856222564675_2_alg».proof.Proof.Gen.Kernel.Skeleton
import proofs.«133473_j8856222564675_2_alg».proof.Proof.Gen.Kernel.Launch
import proofs.«133473_j8856222564675_2_alg».proof.Proof.Gen.Kernel.Points
import proofs.«133473_j8856222564675_2_alg».proof.Proof.Gen.Kernel.Frame
import proofs.«133473_j8856222564675_2_alg».proof.Proof.Gen.KernelIdeal
import proofs.«133473_j8856222564675_2_alg».proof.Proof.Gen.KernelIdeal.Skeleton
import proofs.«133473_j8856222564675_2_alg».proof.Proof.Gen.KernelIdeal.Launch
import proofs.«133473_j8856222564675_2_alg».proof.Proof.Gen.KernelIdeal.Points
import proofs.«133473_j8856222564675_2_alg».proof.Proof.Gen.KernelIdeal.Frame
import proofs.«133473_j8856222564675_2_alg».proof.Proof.Gen.ReferenceIdeal
import proofs.«133473_j8856222564675_2_alg».proof.Proof.Gen.KernelIdeal.Value
import proofs.«133473_j8856222564675_2_alg».proof.Proof.Gen.ReferenceIdeal.Run
import proofs.«133473_j8856222564675_2_alg».proof.Proof.Gen.ReferenceIdeal.Read
import proofs.«133473_j8856222564675_2_alg».proof.Proof.Gen.Pre_finite_inputs
import proofs.«133473_j8856222564675_2_alg».proof.Proof.KernelRun
import proofs.«133473_j8856222564675_2_alg».proof.Proof.RefBridge
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the dense layer of those arguments. -/
theorem algebraic : Cert.algebraic_KernelIdeal_ReferenceIdeal := by
  intro m ρ m' ρ' _ hagree
  refine ⟨fun c => Cert.KernelIdeal.Blocks.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.RefBridge.ref_eq_lin,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
